-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x54 : Shape := ⟨2, ![100000, 54]⟩
abbrev S2x3200000 : Shape := ⟨2, ![2, 3200000]⟩
abbrev S54x16 : Shape := ⟨2, ![54, 16]⟩
abbrev S16 : Shape := ⟨1, ![16]⟩
abbrev S16x16 : Shape := ⟨2, ![16, 16]⟩
abbrev S_ : Shape := ⟨0, ![]⟩

class Facts : Prop where
  bcast_S_S100000x54 : S_.BroadcastsInDim S100000x54 (![] : Fin 0 → Fin S100000x54.rank)
  reducesTo_S100000x54_S_d0_1 : S100000x54.ReducesTo [0, 1] S_
  h_S_ : 0 < S_.numel
  bcast_S_S54x16 : S_.BroadcastsInDim S54x16 (![] : Fin 0 → Fin S54x16.rank)
  reducesTo_S54x16_S_d0_1 : S54x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x54 .f32) (main_arg1 : IVec S2x3200000 32) (main_arg2 : FVec F S54x16 .f32) (main_arg3 : FVec F S16 .f32) (main_arg4 : FVec F S16x16 .f32) (main_arg5 : FVec F S16 .f32) : IVec S_ 1 :=
  let main_v0 : FVec F S100000x54 .f32 := Host.absf main_arg0
  let main_cst : FVec F S_ .f32 := constant S_ .f32 0x7F800000#32
  let main_v1 : FVec F S100000x54 .f32 := broadcastInDim S100000x54 ![] bcast_S_S100000x54 main_cst
  let main_v2 : IVec S100000x54 1 := cmpf .olt main_v0 main_v1
  let main_c : IVec S_ 1 := constantI S_ 1 1#1
  let main_v3 : IVec S_ 1 := (fun x v => Host.reduce IntOp.andi x v reducesTo_S100000x54_S_d0_1 h_S_) main_v2 main_c
  let main_v4 : FVec F S54x16 .f32 := Host.absf main_arg2
  let main_cst_0 : FVec F S_ .f32 := constant S_ .f32 0x7F800000#32
  let main_v5 : FVec F S54x16 .f32 := broadcastInDim S54x16 ![] bcast_S_S54x16 main_cst_0
  let main_v6 : IVec S54x16 1 := cmpf .olt main_v4 main_v5
  let main_c_1 : IVec S_ 1 := constantI S_ 1 1#1
  let main_v7 : IVec S_ 1 := (fun x v => Host.reduce IntOp.andi x v reducesTo_S54x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x54 : Shape := ⟨2, ![100000, 54]⟩
abbrev S2x3200000 : Shape := ⟨2, ![2, 3200000]⟩
abbrev S54x16 : Shape := ⟨2, ![54, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x16 : Shape := ⟨2, ![1, 16]⟩
abbrev S100000x16 : Shape := ⟨2, ![100000, 16]⟩
abbrev S10000x54 : Shape := ⟨2, ![10000, 54]⟩
abbrev S10000x16 : Shape := ⟨2, ![10000, 16]⟩
abbrev S3300000x16 : Shape := ⟨2, ![3300000, 16]⟩

abbrev nBuf : Space → Nat
  | .hbm => 84
  | .vmem => 20
  | .smem => 0
  | _ => 0

abbrev bufTy : (tb : Table) → Fin (tcTables nBuf tb) → BufTy
  | .hbm, ⟨0, _⟩ => ⟨S100000x54, .f32⟩
  | .hbm, ⟨1, _⟩ => ⟨S2x3200000, .i32⟩
  | .hbm, ⟨2, _⟩ => ⟨S54x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S1x16, .f32⟩
  | .hbm, ⟨47, _⟩ => ⟨S1x16, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x1, .f32⟩
  | .hbm, ⟨77, _⟩ => ⟨S3300000x16, .f32⟩
  | .hbm, ⟨78, _⟩ => ⟨S3300000x16, .f32⟩
  | .hbm, ⟨79, _⟩ => ⟨S_, .f32⟩
  | .hbm, ⟨80, _⟩ => ⟨S100000x16, .f32⟩
  | .hbm, ⟨81, _⟩ => ⟨S3300000x1, .i32⟩
  | .hbm, ⟨82, _⟩ => ⟨S100000x16, .f32⟩
  | .hbm, ⟨83, _⟩ => ⟨S100000x16, .f32⟩
  | .local _ .vmem, ⟨0, _⟩ => ⟨S10000x54, .f32⟩
  | .local _ .vmem, ⟨1, _⟩ => ⟨S10000x54, .f32⟩
  | .local _ .vmem, ⟨2, _⟩ => ⟨S54x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x54, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x54 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S54x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S16_S1x16 : S16.ShapeCasts S1x16
  inb_S10000x54_S10000x54_0_0 : ∀ a, (![0, 0] : Fin 2 → Nat) a + S10000x54.size a ≤ S10000x54.size a
  h_S10000x54 : 0 < S10000x54.numel
  bitsLt_bf16_f32 : FTy.bits .bf16 < FTy.bits .f32
  inb_S54x16_S54x16_0_0 : ∀ a, (![0, 0] : Fin 2 → Nat) a + S54x16.size a ≤ S54x16.size a
  h_S54x16 : 0 < S54x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x54_S54x16_S10000x16_1_0_0_1_n_n_wf : DotDims.WF S10000x54 S54x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x54.size a ≤ S100000x54.size a
  hwx0_0 : ∀ i : grid0.Coords, EltTy.bits .f32 = 32 ∨ (Rect.block (s := S100000x54) S10000x54.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S54x16.size a ≤ S54x16.size a
  hwx0_1 : ∀ i : grid0.Coords, EltTy.bits .f32 = 32 ∨ (Rect.block (s := S54x16) S54x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x54_S54x16_S10000x16_1_0_0_1_n_n : DotDims S10000x54 S54x16 S10000x16 where
  lhsContracting := [1]
  rhsContracting := [0]
  lhsNonContracting := [0]
  rhsNonContracting := [1]
  lhsBatch := []
  rhsBatch := []
  wf := dot_S10000x54_S54x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S10000x54.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S54x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x54 : Shape := ⟨2, ![100000, 54]⟩
abbrev S2x3200000 : Shape := ⟨2, ![2, 3200000]⟩
abbrev S54x16 : Shape := ⟨2, ![54, 16]⟩
abbrev S16 : Shape := ⟨1, ![16]⟩
abbrev S16x16 : Shape := ⟨2, ![16, 16]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 132
  | .vmem => 0
  | .smem => 0
  | _ => 0

abbrev hbmTy0_0 (i : Nat) : BufTy := match i % 128 with
  | 0 => ⟨S100000x54, .f32⟩
  | 1 => ⟨S2x3200000, .i32⟩
  | 2 => ⟨S54x16, .f32⟩
  | 3 => ⟨S16, .f32⟩
  | 4 => ⟨S16x16, .f32⟩
  | 5 => ⟨S16, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x16, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x16, .f32⟩
  | 119 => ⟨S3300000x1, .f32⟩
  | 120 => ⟨S3300000x16, .f32⟩
  | 121 => ⟨S3300000x16, .f32⟩
  | 122 => ⟨S_, .f32⟩
  | 123 => ⟨S100000x16, .f32⟩
  | 124 => ⟨S3300000x1, .i32⟩
  | 125 => ⟨S100000x16, .f32⟩
  | 126 => ⟨S1x16, .f32⟩
  | 127 => ⟨S100000x16, .f32⟩
  | _ => ⟨S100000x54, .f32⟩

abbrev hbmTy0_1 (i : Nat) : BufTy := match i % 128 with
  | 0 => ⟨S100000x16, .f32⟩
  | 1 => ⟨S_, .f32⟩
  | 2 => ⟨S100000x16, .f32⟩
  | 3 => ⟨S100000x16, .f32⟩
  | _ => ⟨S100000x54, .f32⟩

abbrev hbmTy (i : Nat) : BufTy := match i / 128 with
  | 0 => hbmTy0_0 i
  | 1 => hbmTy0_1 i
  | _ => ⟨S100000x54, .f32⟩

abbrev bufTy : (tb : Table) → Fin (tcTables nBuf tb) → BufTy
  | .hbm, ⟨i, _⟩ => hbmTy i
  | _, _ => ⟨S100000x54, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x54_S54x16_S100000x16_1_0_0_1_n_n_wf : DotDims.WF S100000x54 S54x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x54_S54x16_S100000x16_1_0_0_1_n_n : DotDims S100000x54 S54x16 S100000x16 where
  lhsContracting := [1]
  rhsContracting := [0]
  lhsNonContracting := [0]
  rhsNonContracting := [1]
  lhsBatch := []
  rhsBatch := []
  wf := dot_S100000x54_S54x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized program's run with its result named.

  The program is nine segments: three stretches of host operations, the first row transform, a stretch of host
  operations, the first bias-and-clamp, the second row transform, a stretch of host operations, the second
  bias-and-clamp. The contents of every buffer at each boundary are a fold from the launch memory: a stretch applies its
  operations, a region leaves in each of its arrays what its write-backs leave and every other buffer as it was. Every
  weakly fair execution terminates with every buffer at the last boundary's contents; read there: the result buffer at
  the fold's value, and each argument as launched. What that value IS, as a function of the arguments, is the business
  of the modules that walk the fold back; here it is only named.
-/
import proofs.«122564_j21474836480575_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.Layer.lean ====
/-
  The two dense pieces of a graph-convolution layer as whole-array functions on the extended reals, and each form in
  which they are computed read as that function.

  * Every row of an [N,K] array times a [K,H] matrix: entry (r,h) is the sum over c of A[r,c]·B[c,h]. It is what the
    host's general product computes, and what the matrix unit's product into a zero accumulator computes (its operands
    may first pass through a narrower float format: on the extended reals that is the identity, so nothing is said of it).
  * A row vector added to every row, the sum then clamped below at a bound z: entry (r,h) is max(X[r,h] + b[h], z).
    The host computes it from b broadcast to a one-row matrix and then to all rows; a tile computes it from b held as
    a one-row matrix. Both read b at column h only.

  No sum is reordered and nothing is cancelled: every equation here holds for all extended reals, infinite ones included.
-/
import Idealize.ShloMosaic.Lib.ValueIdx
import Idealize.ShloMosaic.Lib.ValueLayout
import Idealize.ShloMosaic.Lib.Pipeline.Value
import Idealize.ShloMosaic.PureOps.Ideal.Laws
import proofs.«122564_j21474836480575_1_alg».proof.Proof.LibPlainDot

noncomputable section

namespace Cert.Gcn

open Idealize.ShloMosaic Idealize.ShloMosaic.ValueIdx

variable {N K H : ℕ}

/-! ## Rows times a matrix -/

/-- Every row of `A` times the matrix `B`: entry (r,h) is the sum over c of A[r,c]·B[c,h]. -/
def rowsTimes (A : (⟨2, ![N, K]⟩ : Shape).Idx → EReal) (B : (⟨2, ![K, H]⟩ : Shape).Idx → EReal) :
    (⟨2, ![N, H]⟩ : Shape).Idx → EReal :=
  fun i => ∑ c : Fin K, A (ix2 (⟨(i 0).val, idx2_lt0 i⟩ : Fin N) c) * B (ix2 c (⟨(i 1).val, idx2_lt1 i⟩ : Fin H))

theorem rowsTimes_apply (A : (⟨2, ![N, K]⟩ : Shape).Idx → EReal) (B : (⟨2, ![K, H]⟩ : Shape).Idx → EReal)
    (r : Fin N) (h : Fin H) : rowsTimes A B (ix2 r h) = ∑ c : Fin K, A (ix2 r c) * B (ix2 c h) := rfl

/-- The host's product with the plain dimension numbers is `rowsTimes`. -/
theorem dotGeneral_eq_rowsTimes {φ₁ φ₂ : FTy}
    (w : DotDims.WF ⟨2, ![N, K]⟩ ⟨2, ![K, H]⟩ ⟨2, ![N, H]⟩ [1] [0] [0] [1] [] [])
    (prec : Option ContractPrecision) (A : FVec Ideal ⟨2, ![N, K]⟩ φ₁) (B : FVec Ideal ⟨2, ![K, H]⟩ φ₂) :
    Host.dotGeneral (⟨[1], [0], [0], [1], [], [], w⟩ : DotDims _ _ _) prec A B = rowsTimes A B := by
  funext i
  obtain ⟨r, h, rfl⟩ : ∃ (r : Fin N) (h : Fin H), i = ix2 r h := ⟨i 0, i 1, eq_ix2 i⟩
  exact Cert.LibPlainDot.dotGeneral_apply w prec A B r h

/-- The matrix unit's product with the plain dimension numbers, into a zero accumulator, is `rowsTimes`. -/
theorem matmul_zero_eq_rowsTimes {φ₁ φ₂ : FTy}
    (w : DotDims.WF ⟨2, ![N, K]⟩ ⟨2, ![K, H]⟩ ⟨2, ![N, H]⟩ [1] [0] [0] [1] [] [])
    (prec : Option ContractPrecision) (A : FVec Ideal ⟨2, ![N, K]⟩ φ₁) (B : FVec Ideal ⟨2, ![K, H]⟩ φ₂) :
    matmul (⟨[1], [0], [0], [1], [], [], w⟩ : DotDims _ _ _) prec A B (constant ⟨2, ![N, H]⟩ .f32 0x00000000#32)
      = rowsTimes A B := by
  funext i
  obtain ⟨r, h, rfl⟩ : ∃ (r : Fin N) (h : Fin H), i = ix2 r h := ⟨i 0, i 1, eq_ix2 i⟩
  exact Cert.LibPlainDot.matmul_zero_apply w prec A B r h

/-- A tile of the product: if row (j 0) of `a` is row (i 0) of `A`, and column (j 1) of `b` is column (i 1) of `B`, then the
    products agree there. (Entry (r,h) of a product reads row r of the left factor and column h of the right one only.) -/
theorem rowsTimes_tile {T : ℕ} (A : (⟨2, ![N, K]⟩ : Shape).Idx → EReal) (B : (⟨2, ![K, H]⟩ : Shape).Idx → EReal)
    (a : (⟨2, ![T, K]⟩ : Shape).Idx → EReal) (b : (⟨2, ![K, H]⟩ : Shape).Idx → EReal)
    (j : (⟨2, ![T, H]⟩ : Shape).Idx) (i : (⟨2, ![N, H]⟩ : Shape).Idx)
    (ha : ∀ k : Fin K, a (ix2 (⟨(j 0).val, idx2_lt0 j⟩ : Fin T) k) = A (ix2 (⟨(i 0).val, idx2_lt0 i⟩ : Fin N) k))
    (hb : ∀ k : Fin K, b (ix2 k (⟨(j 1).val, idx2_lt1 j⟩ : Fin H)) = B (ix2 k (⟨(i 1).val, idx2_lt1 i⟩ : Fin H))) :
    rowsTimes a b j = rowsTimes A B i :=
  Finset.sum_congr rfl fun k _ => by rw [ha k, hb k]

/-! ## A row vector added to every row, then a clamp from below -/

/-- max(X[r,h] + b[h], z), the row vector given as a vector. -/
def addRowClamp (X : (⟨2, ![N, H]⟩ : Shape).Idx → EReal) (b : (⟨1, ![H]⟩ : Shape).Idx → EReal) (z : EReal) :
    (⟨2, ![N, H]⟩ : Shape).Idx → EReal :=
  fun i => max (X i + b (ix1 (⟨(i 1).val, idx2_lt1 i⟩ : Fin H))) z

/-- The same with the row vector given as a one-row matrix. -/
def addRow1Clamp (X : (⟨2, ![N, H]⟩ : Shape).Idx → EReal) (b : (⟨2, ![1, H]⟩ : Shape).Idx → EReal) (z : EReal) :
    (⟨2, ![N, H]⟩ : Shape).Idx → EReal :=
  fun i => max (X i + b (ix2 (0 : Fin 1) (⟨(i 1).val, idx2_lt1 i⟩ : Fin H))) z

/-- A tile of it: if `x` at j is `X` at i and the two rows agree at the columns of j and i, the values agree there. -/
theorem addRow1Clamp_tile {T : ℕ} (X : (⟨2, ![N, H]⟩ : Shape).Idx → EReal) (b : (⟨2, ![1, H]⟩ : Shape).Idx → EReal)
    (x : (⟨2, ![T, H]⟩ : Shape).Idx → EReal) (b' : (⟨2, ![1, H]⟩ : Shape).Idx → EReal) (z : EReal)
    (j : (⟨2, ![T, H]⟩ : Shape).Idx) (i : (⟨2, ![N, H]⟩ : Shape).Idx) (hx : x j = X i)
    (hb : b' (ix2 (0 : Fin 1) (⟨(j 1).val, idx2_lt1 j⟩ : Fin H)) = b (ix2 (0 : Fin 1) (⟨(i 1).val, idx2_lt1 i⟩ : Fin H))) :
    addRow1Clamp x b' z j = addRow1Clamp X b z i := by
  show max (x j + b' _) z = max (X i + b _) z
  rw [hx, hb]

/-- A vector cast to a one-row matrix is that row. -/
theorem addRow1Clamp_shapeCast (X : (⟨2, ![N, H]⟩ : Shape).Idx → EReal) (b : (⟨1, ![H]⟩ : Shape).Idx → EReal) (z : EReal)
    (h : (⟨1, ![H]⟩ : Shape).ShapeCasts ⟨2, ![1, H]⟩) :
    addRow1Clamp X (shapeCast ⟨2, ![1, H]⟩ b h) z = addRowClamp X b z := by
  funext i
  show max (X i + shapeCast ⟨2, ![1, H]⟩ b h (ix2 (0 : Fin 1) _)) z = max (X i + b (ix1 _)) z
  rw [shapeCast_a_1a_apply]

/-- The host's form: the vector broadcast along a new leading axis to one row, that row broadcast to all rows, added,
    and the maximum taken with a scalar constant broadcast to the whole shape. -/
theorem host_addRowClamp (X : FVec Ideal ⟨2, ![N, H]⟩ .f32) (b : FVec Ideal ⟨1, ![H]⟩ .f32) (z : BitVec 32)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2))
    (h0 : (⟨0, ![]⟩ : Shape).BroadcastsInDim ⟨2, ![N, H]⟩ (![] : Fin 0 → Fin 2)) :
    maximumf (addf X (broadcastInDim ⟨2, ![N, H]⟩ ![0, 1] h2 (broadcastInDim ⟨2, ![1, H]⟩ ![1] h1 b)))
        (broadcastInDim ⟨2, ![N, H]⟩ ![] h0 (constant (F := Ideal) ⟨0, ![]⟩ .f32 z))
      = addRowClamp X b (Ideal.ofBits .f32 z) := by
  funext i
  obtain ⟨r, q, rfl⟩ : ∃ (r : Fin N) (q : Fin H), i = ix2 r q := ⟨i 0, i 1, eq_ix2 i⟩
  show max (X (ix2 r q) + broadcastInDim ⟨2, ![N, H]⟩ ![0, 1] h2 (broadcastInDim ⟨2, ![1, H]⟩ ![1] h1 b) (ix2 r q))
      (broadcastInDim ⟨2, ![N, H]⟩ ![] h0 (constant (F := Ideal) ⟨0, ![]⟩ .f32 z) (ix2 r q))
    = max (X (ix2 r q) + b (ix1 q)) (Ideal.ofBits .f32 z)
  rw [broadcastInDim_apply ![0, 1] h2 _ (ix2 r q) (ix2 (0 : Fin 1) q) (fun a => by
        match a with
        | ⟨0, _⟩ => rfl
        | ⟨1, _⟩ =>
          show q.val = if H = 1 then 0 else q.val
          split
          · have := q.isLt; omega
          · rfl),
    broadcastInDim_apply ![1] h1 b (ix2 (0 : Fin 1) q) (ix1 q) (fun a => by
        match a with
        | ⟨0, _⟩ =>
          show q.val = if H = 1 then 0 else q.val
          split
          · have := q.isLt; omega
          · rfl),
    broadcastInDim_apply ![] h0 _ (ix2 r q) ix0 (fun a => a.elim0)]
  rfl

/-- A tile's form: the rows and the one-row matrix each cast to their own shape, the row broadcast to the tile, added,
    and the maximum taken with a scalar spread over the tile. -/
theorem tile_addRow1Clamp (X : FVec Ideal ⟨2, ![N, H]⟩ .f32) (b : FVec Ideal ⟨2, ![1, H]⟩ .f32) (z : BitVec 32)
    (hX : (⟨2, ![N, H]⟩ : Shape).ShapeCasts ⟨2, ![N, H]⟩) (hb : (⟨2, ![1, H]⟩ : Shape).ShapeCasts ⟨2, ![1, H]⟩)
    (hbc : (⟨2, ![1, H]⟩ : Shape).Broadcasts ⟨2, ![N, H]⟩) :
    maximumf (addf (shapeCast ⟨2, ![N, H]⟩ X hX) (broadcastTo ⟨2, ![N, H]⟩ (shapeCast ⟨2, ![1, H]⟩ b hb) hbc))
        (broadcast ⟨2, ![N, H]⟩ (Scalar.ofBits (F := Ideal) .f32 z))
      = addRow1Clamp X b (Ideal.ofBits .f32 z) := by
  rw [shapeCast_self, shapeCast_self]
  funext i
  obtain ⟨r, q, rfl⟩ : ∃ (r : Fin N) (q : Fin H), i = ix2 r q := ⟨i 0, i 1, eq_ix2 i⟩
  show max (X (ix2 r q) + broadcastTo ⟨2, ![N, H]⟩ b hbc (ix2 r q)) (Scalar.ofBits (F := Ideal) .f32 z)
    = max (X (ix2 r q) + b (ix2 (0 : Fin 1) q)) (Ideal.ofBits .f32 z)
  rw [broadcastTo_1b_ab_apply]
  rfl

end Cert.Gcn

end
-- ==== Proof.Tile0.lean ====
/-
  Region 0 of the program multiplies every row of a [100000,54] array by a [54,16] matrix, a tile of 10000 rows per grid
  point (10 points). Tile t of the output is rows 10000·t … 10000·t+9999; it is computed from the same rows of the left
  array and from the whole matrix, by the matrix unit's product into a zero accumulator. Since entry (r,h) of the
  product only reads row r of the left array, tile t of the output IS tile t of the whole product, and the ten tiles
  cover the output: after the region the output array holds the whole product of the arrays the region found.
  Stated for ANY contents `V` of the buffers at the region's entry.
-/
import proofs.«122564_j21474836480575_1_alg».proof.Proof.Gen.KernelIdeal.Frame
import proofs.«122564_j21474836480575_1_alg».proof.Proof.Layer

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros0 : (![0, 0] : Fin 2 → Nat) = fun _ => 0 := funext fun a => by fin_cases a <;> rfl

/-- The tile's stored value is the product of the tile of rows with the matrix. -/
theorem tile0 (x0 : Vec Ideal S10000x54 .f32) (x1 : Vec Ideal S54x16 .f32) :
    k0_pay1 (F := Ideal) x0 x1 = Cert.Gcn.rowsTimes x0 x1 := by
  unfold k0_pay1
  exact Cert.Gcn.matmul_zero_eq_rowsTimes dot_S10000x54_S54x16_S10000x16_1_0_0_1_n_n_wf none _ _

/-- The block index maps over the grid: the left array's and the output's row tile is the point's number, the column
    block is 0; the matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the whole product of the arrays the region found. -/
theorem flushed0 (c : Dev nD) (t : Fin cfg0.N) :
    (dat0 V c).flushed 2 t
      = ((cfg0.win 2).blk t).view.read (Elt Ideal) (Cert.Gcn.rowsTimes (V c main_arg0) (V c main_arg2)) := by
  show (cfg0.win 2).cut (grid0.coords t) ((dat0 V c).after 2 t) = _
  rw [after0_2]
  unfold out0_2
  rw [View.canon_unit_zero zeros0]
  simp only [View.ld_unit_zero (S := S10000x54) zeros0, View.ld_unit_zero (S := S54x16) zeros0]
  rw [tile0]
  obtain ⟨e0, e1, e2, e3, e4, e5⟩ := idx0 t
  funext j
  have hj0 : (j 0).val < 10000 := idx2_lt0 j
  have hj1 : (j 1).val < 16 := idx2_lt1 j
  show Cert.Gcn.rowsTimes (iblk0 V c 0 t) (iblk0 V c 1 t) j
    = Cert.Gcn.rowsTimes (V c main_arg0) (V c main_arg2) (((cfg0.win 2).blk t).view.emb j)
  refine Cert.Gcn.rowsTimes_tile (V c main_arg0) (V c main_arg2) (iblk0 V c 0 t) (iblk0 V c 1 t) j
    (((cfg0.win 2).blk t).view.emb j) (fun k => ?_) (fun k => ?_)
  · show V c main_arg0 (((cfg0.win 0).blk t).view.emb (ix2 (⟨(j 0).val, idx2_lt0 j⟩ : Fin 10000) k))
      = V c main_arg0 (ix2 (⟨((((cfg0.win 2).blk t).view.emb j) 0).val, idx2_lt0 _⟩ : Fin 100000) k)
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 54 + 1 * k.val = k.val
      omega
  · show V c main_arg2 (((cfg0.win 1).blk t).view.emb (ix2 k (⟨(j 1).val, idx2_lt1 j⟩ : Fin 16)))
      = V c main_arg2 (ix2 k (⟨((((cfg0.win 2).blk t).view.emb j) 1).val, idx2_lt1 _⟩ : Fin 16))
    refine congrArg (V c main_arg2) (funext fun a => Fin.ext ?_)
    match a with
    | ⟨0, _⟩ =>
      show win0_1.index t (0 : Fin 2) * 54 + 1 * k.val = k.val
      omega
    | ⟨1, _⟩ =>
      show win0_1.index t (1 : Fin 2) * 16 + 1 * (j 1).val = win0_2.index t (1 : Fin 2) * 16 + 1 * (j 1).val
      omega

/-- An index of the output is in point t's tile iff each coordinate is in the tile's range on its axis. -/
theorem mem_tile0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v32).slice (win0_2.rect t)).set ↔ _
  rw [View.set_slice_whole, Rect.mem_set_unit]
  exact Iff.rfl

/-- Row r of the output is in tile r / 10000: the ten tiles cover the output. -/
theorem cover0 (i : S100000x16.Idx) :
    ∃ t : Fin cfg0.N, (cfg0.win 2).flush t = true ∧ i ∈ ((cfg0.win 2).blk t).view.set := by
  have hi0 : (i 0).val < 100000 := idx2_lt0 i
  have hi1 : (i 1).val < 16 := idx2_lt1 i
  have hN : cfg0.N = 10 := N_0
  have ht : (i 0).val / 10000 < cfg0.N := by rw [hN]; omega
  obtain ⟨-, -, -, -, e4, e5⟩ := idx0 ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_tile0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 16 ≤ (i 1).val
      ∧ (i 1).val < win0_2.index ⟨(i 0).val / 10000, ht⟩ (1 : Fin 2) * 16 + 16
    omega

/-- After the region the output array holds the whole product of the arrays the region found. -/
theorem final0 (c : Dev nD) :
    (dat0 V c).arrAt 2 cfg0.N = Cert.Gcn.rowsTimes (V c main_arg0) (V c main_arg2) :=
  (dat0 V c).arrAt_eq_of_cover 2 _ (fun t _ => flushed0 V c t) cover0

end Cert.KernelIdeal.Tiles

end
-- ==== Proof.Tile1.lean ====
/-
  Region 1 of the program adds a row vector, held as a [1,16] array, to every row of a [100000,16] array and clamps
  the sums below at a bound, a tile of 10000 rows per grid point (10 points). Tile t of the output is rows 10000·t …
  10000·t+9999, computed from the same rows of the input and from the whole one-row array. Entry (r,h) only reads
  entry (r,h) of the input and column h of the row, so tile t of the output IS tile t of the whole-array function, and
  the ten tiles cover the output: after the region the output array holds max(X[r,h] + b[0,h], z) of the arrays the
  region found. Stated for ANY contents `V` of the buffers at the region's entry.
-/
import proofs.«122564_j21474836480575_1_alg».proof.Proof.Gen.KernelIdeal.Frame
import proofs.«122564_j21474836480575_1_alg».proof.Proof.Layer

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros1 : (![0, 0] : Fin 2 → Nat) = fun _ => 0 := funext fun a => by fin_cases a <;> rfl

/-- The bound the sums are clamped at: the value of the all-zero float word. -/
abbrev bound1 : EReal := Ideal.ofBits .f32 0x00000000#32

/-- The tile's stored value: the row added to every row of the tile, clamped below at the bound. -/
theorem tile1 (x0 : Vec Ideal S10000x16 .f32) (x1 : Vec Ideal S1x16 .f32) :
    k1_pay1 (F := Ideal) x0 x1 = Cert.Gcn.addRow1Clamp x0 x1 bound1 := by
  unfold k1_pay1
  exact Cert.Gcn.tile_addRow1Clamp x0 x1 0x00000000#32 _ _ _

/-- The block index maps over the grid: the input's and the output's row tile is the point's number, the column block
    is 0; the one-row array is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the whole-array function of the arrays the region found. -/
theorem flushed1 (c : Dev nD) (t : Fin cfg1.N) :
    (dat1 V c).flushed 2 t
      = ((cfg1.win 2).blk t).view.read (Elt Ideal) (Cert.Gcn.addRow1Clamp (V c main_v45) (V c main_v30) bound1) := by
  show (cfg1.win 2).cut (grid1.coords t) ((dat1 V c).after 2 t) = _
  rw [after1_2]
  unfold out1_2
  rw [View.canon_unit_zero zeros1]
  simp only [View.ld_unit_zero (S := S10000x16) zeros1, View.ld_unit_zero (S := S1x16) zeros1]
  rw [tile1]
  obtain ⟨e0, e1, e2, e3, e4, e5⟩ := idx1 t
  funext j
  have hj0 : (j 0).val < 10000 := idx2_lt0 j
  have hj1 : (j 1).val < 16 := idx2_lt1 j
  show Cert.Gcn.addRow1Clamp (iblk1 V c 0 t) (iblk1 V c 1 t) bound1 j
    = Cert.Gcn.addRow1Clamp (V c main_v45) (V c main_v30) bound1 (((cfg1.win 2).blk t).view.emb j)
  refine Cert.Gcn.addRow1Clamp_tile (V c main_v45) (V c main_v30) (iblk1 V c 0 t) (iblk1 V c 1 t) bound1 j
    (((cfg1.win 2).blk t).view.emb j) ?_ ?_
  · show V c main_v45 (((cfg1.win 0).blk t).view.emb j) = V c main_v45 (((cfg1.win 2).blk t).view.emb j)
    refine congrArg (V c main_v45) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 16 + 1 * (j 1).val = win1_2.index t (1 : Fin 2) * 16 + 1 * (j 1).val
      omega
  · show V c main_v30 (((cfg1.win 1).blk t).view.emb (ix2 (0 : Fin 1) (⟨(j 1).val, idx2_lt1 j⟩ : Fin 16)))
      = V c main_v30 (ix2 (0 : Fin 1) (⟨((((cfg1.win 2).blk t).view.emb j) 1).val, idx2_lt1 _⟩ : Fin 16))
    refine congrArg (V c main_v30) (funext fun a => Fin.ext ?_)
    match a with
    | ⟨0, _⟩ =>
      show win1_1.index t (0 : Fin 2) * 1 + 1 * 0 = 0
      omega
    | ⟨1, _⟩ =>
      show win1_1.index t (1 : Fin 2) * 16 + 1 * (j 1).val = win1_2.index t (1 : Fin 2) * 16 + 1 * (j 1).val
      omega

/-- An index of the output is in point t's tile iff each coordinate is in the tile's range on its axis. -/
theorem mem_tile1 (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v46).slice (win1_2.rect t)).set ↔ _
  rw [View.set_slice_whole, Rect.mem_set_unit]
  exact Iff.rfl

/-- Row r of the output is in tile r / 10000: the ten tiles cover the output. -/
theorem cover1 (i : S100000x16.Idx) :
    ∃ t : Fin cfg1.N, (cfg1.win 2).flush t = true ∧ i ∈ ((cfg1.win 2).blk t).view.set := by
  have hi0 : (i 0).val < 100000 := idx2_lt0 i
  have hi1 : (i 1).val < 16 := idx2_lt1 i
  have hN : cfg1.N = 10 := N_1
  have ht : (i 0).val / 10000 < cfg1.N := by rw [hN]; omega
  obtain ⟨-, -, -, -, e4, e5⟩ := idx1 ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_tile1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    omega

/-- After the region the output array holds the whole-array function of the arrays the region found. -/
theorem final1 (c : Dev nD) :
    (dat1 V c).arrAt 2 cfg1.N = Cert.Gcn.addRow1Clamp (V c main_v45) (V c main_v30) bound1 :=
  (dat1 V c).arrAt_eq_of_cover 2 _ (fun t _ => flushed1 V c t) cover1

end Cert.KernelIdeal.Tiles

end
-- ==== Proof.Tile2.lean ====
/-
  Region 2 of the program multiplies every row of a [100000,16] array by a [16,16] matrix, a tile of 10000 rows per grid
  point (10 points). Tile t of the output is rows 10000·t … 10000·t+9999; it is computed from the same rows of the left
  array and from the whole matrix, by the matrix unit's product into a zero accumulator (the tile of rows first cast to its own shape: the identity). Since entry (r,h) of the
  product only reads row r of the left array, tile t of the output IS tile t of the whole product, and the ten tiles
  cover the output: after the region the output array holds the whole product of the arrays the region found.
  Stated for ANY contents `V` of the buffers at the region's entry.
-/
import proofs.«122564_j21474836480575_1_alg».proof.Proof.Gen.KernelIdeal.Frame
import proofs.«122564_j21474836480575_1_alg».proof.Proof.Layer

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The tile's stored value is the product of the tile of rows with the matrix. -/
theorem tile2 (x0 : Vec Ideal S10000x16 .f32) (x1 : Vec Ideal S16x16 .f32) :
    k2_pay1 (F := Ideal) x0 x1 = Cert.Gcn.rowsTimes x0 x1 := by
  unfold k2_pay1
  dsimp only
  rw [shapeCast_self]
  exact Cert.Gcn.matmul_zero_eq_rowsTimes dot_S10000x16_S16x16_S10000x16_1_0_0_1_n_n_wf none _ _

/-- The block index maps over the grid: the left array's and the output's row tile is the point's number, the column
    block is 0; the matrix is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the whole product of the arrays the region found. -/
theorem flushed2 (c : Dev nD) (t : Fin cfg2.N) :
    (dat2 V c).flushed 2 t
      = ((cfg2.win 2).blk t).view.read (Elt Ideal) (Cert.Gcn.rowsTimes (V c main_v46) (V c main_arg4)) := by
  show (cfg2.win 2).cut (grid2.coords t) ((dat2 V c).after 2 t) = _
  rw [after2_2]
  unfold out2_2
  rw [View.canon_unit_zero zeros2]
  simp only [View.ld_unit_zero (S := S10000x16) zeros2, View.ld_unit_zero (S := S16x16) zeros2]
  rw [tile2]
  obtain ⟨e0, e1, e2, e3, e4, e5⟩ := idx2 t
  funext j
  have hj0 : (j 0).val < 10000 := idx2_lt0 j
  have hj1 : (j 1).val < 16 := idx2_lt1 j
  show Cert.Gcn.rowsTimes (iblk2 V c 0 t) (iblk2 V c 1 t) j
    = Cert.Gcn.rowsTimes (V c main_v46) (V c main_arg4) (((cfg2.win 2).blk t).view.emb j)
  refine Cert.Gcn.rowsTimes_tile (V c main_v46) (V c main_arg4) (iblk2 V c 0 t) (iblk2 V c 1 t) j
    (((cfg2.win 2).blk t).view.emb j) (fun k => ?_) (fun k => ?_)
  · show V c main_v46 (((cfg2.win 0).blk t).view.emb (ix2 (⟨(j 0).val, idx2_lt0 j⟩ : Fin 10000) k))
      = V c main_v46 (ix2 (⟨((((cfg2.win 2).blk t).view.emb j) 0).val, idx2_lt0 _⟩ : Fin 100000) k)
    refine congrArg (V c main_v46) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 16 + 1 * k.val = k.val
      omega
  · show V c main_arg4 (((cfg2.win 1).blk t).view.emb (ix2 k (⟨(j 1).val, idx2_lt1 j⟩ : Fin 16)))
      = V c main_arg4 (ix2 k (⟨((((cfg2.win 2).blk t).view.emb j) 1).val, idx2_lt1 _⟩ : Fin 16))
    refine congrArg (V c main_arg4) (funext fun a => Fin.ext ?_)
    match a with
    | ⟨0, _⟩ =>
      show win2_1.index t (0 : Fin 2) * 16 + 1 * k.val = k.val
      omega
    | ⟨1, _⟩ =>
      show win2_1.index t (1 : Fin 2) * 16 + 1 * (j 1).val = win2_2.index t (1 : Fin 2) * 16 + 1 * (j 1).val
      omega

/-- An index of the output is in point t's tile iff each coordinate is in the tile's range on its axis. -/
theorem mem_tile2 (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v47).slice (win2_2.rect t)).set ↔ _
  rw [View.set_slice_whole, Rect.mem_set_unit]
  exact Iff.rfl

/-- Row r of the output is in tile r / 10000: the ten tiles cover the output. -/
theorem cover2 (i : S100000x16.Idx) :
    ∃ t : Fin cfg2.N, (cfg2.win 2).flush t = true ∧ i ∈ ((cfg2.win 2).blk t).view.set := by
  have hi0 : (i 0).val < 100000 := idx2_lt0 i
  have hi1 : (i 1).val < 16 := idx2_lt1 i
  have hN : cfg2.N = 10 := N_2
  have ht : (i 0).val / 10000 < cfg2.N := by rw [hN]; omega
  obtain ⟨-, -, -, -, e4, e5⟩ := idx2 ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_tile2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 16 ≤ (i 1).val
      ∧ (i 1).val < win2_2.index ⟨(i 0).val / 10000, ht⟩ (1 : Fin 2) * 16 + 16
    omega

/-- After the region the output array holds the whole product of the arrays the region found. -/
theorem final2 (c : Dev nD) :
    (dat2 V c).arrAt 2 cfg2.N = Cert.Gcn.rowsTimes (V c main_v46) (V c main_arg4) :=
  (dat2 V c).arrAt_eq_of_cover 2 _ (fun t _ => flushed2 V c t) cover2

end Cert.KernelIdeal.Tiles

end
-- ==== Proof.Tile3.lean ====
/-
  Region 3 of the program adds a row vector, held as a [1,16] array, to every row of a [100000,16] array and clamps
  the sums below at a bound, a tile of 10000 rows per grid point (10 points). Tile t of the output is rows 10000·t …
  10000·t+9999, computed from the same rows of the input and from the whole one-row array. Entry (r,h) only reads
  entry (r,h) of the input and column h of the row, so tile t of the output IS tile t of the whole-array function, and
  the ten tiles cover the output: after the region the output array holds max(X[r,h] + b[0,h], z) of the arrays the
  region found. Stated for ANY contents `V` of the buffers at the region's entry.
-/
import proofs.«122564_j21474836480575_1_alg».proof.Proof.Gen.KernelIdeal.Frame
import proofs.«122564_j21474836480575_1_alg».proof.Proof.Layer

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros3 : (![0, 0] : Fin 2 → Nat) = fun _ => 0 := funext fun a => by fin_cases a <;> rfl

/-- The bound the sums are clamped at: the value of the all-zero float word. -/
abbrev bound3 : EReal := Ideal.ofBits .f32 0x00000000#32

/-- The tile's stored value: the row added to every row of the tile, clamped below at the bound. -/
theorem tile3 (x0 : Vec Ideal S10000x16 .f32) (x1 : Vec Ideal S1x16 .f32) :
    k3_pay1 (F := Ideal) x0 x1 = Cert.Gcn.addRow1Clamp x0 x1 bound3 := by
  unfold k3_pay1
  exact Cert.Gcn.tile_addRow1Clamp x0 x1 0x00000000#32 _ _ _

/-- The block index maps over the grid: the input's and the output's row tile is the point's number, the column block
    is 0; the one-row array is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the whole-array function of the arrays the region found. -/
theorem flushed3 (c : Dev nD) (t : Fin cfg3.N) :
    (dat3 V c).flushed 2 t
      = ((cfg3.win 2).blk t).view.read (Elt Ideal) (Cert.Gcn.addRow1Clamp (V c main_v60) (V c main_v31) bound3) := by
  show (cfg3.win 2).cut (grid3.coords t) ((dat3 V c).after 2 t) = _
  rw [after3_2]
  unfold out3_2
  rw [View.canon_unit_zero zeros3]
  simp only [View.ld_unit_zero (S := S10000x16) zeros3, View.ld_unit_zero (S := S1x16) zeros3]
  rw [tile3]
  obtain ⟨e0, e1, e2, e3, e4, e5⟩ := idx3 t
  funext j
  have hj0 : (j 0).val < 10000 := idx2_lt0 j
  have hj1 : (j 1).val < 16 := idx2_lt1 j
  show Cert.Gcn.addRow1Clamp (iblk3 V c 0 t) (iblk3 V c 1 t) bound3 j
    = Cert.Gcn.addRow1Clamp (V c main_v60) (V c main_v31) bound3 (((cfg3.win 2).blk t).view.emb j)
  refine Cert.Gcn.addRow1Clamp_tile (V c main_v60) (V c main_v31) (iblk3 V c 0 t) (iblk3 V c 1 t) bound3 j
    (((cfg3.win 2).blk t).view.emb j) ?_ ?_
  · show V c main_v60 (((cfg3.win 0).blk t).view.emb j) = V c main_v60 (((cfg3.win 2).blk t).view.emb j)
    refine congrArg (V c main_v60) (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 16 + 1 * (j 1).val = win3_2.index t (1 : Fin 2) * 16 + 1 * (j 1).val
      omega
  · show V c main_v31 (((cfg3.win 1).blk t).view.emb (ix2 (0 : Fin 1) (⟨(j 1).val, idx2_lt1 j⟩ : Fin 16)))
      = V c main_v31 (ix2 (0 : Fin 1) (⟨((((cfg3.win 2).blk t).view.emb j) 1).val, idx2_lt1 _⟩ : Fin 16))
    refine congrArg (V c main_v31) (funext fun a => Fin.ext ?_)
    match a with
    | ⟨0, _⟩ =>
      show win3_1.index t (0 : Fin 2) * 1 + 1 * 0 = 0
      omega
    | ⟨1, _⟩ =>
      show win3_1.index t (1 : Fin 2) * 16 + 1 * (j 1).val = win3_2.index t (1 : Fin 2) * 16 + 1 * (j 1).val
      omega

/-- An index of the output is in point t's tile iff each coordinate is in the tile's range on its axis. -/
theorem mem_tile3 (t : Fin cfg3.N) (i : S100000x16.Idx) :
    i ∈ ((cfg3.win 2).blk t).view.set ↔ ∀ a : Fin 2, win3_2.index t a * S10000x16.size a ≤ (i a).val
      ∧ (i a).val < win3_2.index t a * S10000x16.size a + S10000x16.size a := by
  show i ∈ ((View.whole main_v61).slice (win3_2.rect t)).set ↔ _
  rw [View.set_slice_whole, Rect.mem_set_unit]
  exact Iff.rfl

/-- Row r of the output is in tile r / 10000: the ten tiles cover the output. -/
theorem cover3 (i : S100000x16.Idx) :
    ∃ t : Fin cfg3.N, (cfg3.win 2).flush t = true ∧ i ∈ ((cfg3.win 2).blk t).view.set := by
  have hi0 : (i 0).val < 100000 := idx2_lt0 i
  have hi1 : (i 1).val < 16 := idx2_lt1 i
  have hN : cfg3.N = 10 := N_3
  have ht : (i 0).val / 10000 < cfg3.N := by rw [hN]; omega
  obtain ⟨-, -, -, -, e4, e5⟩ := idx3 ⟨(i 0).val / 10000, ht⟩
  have e4' : win3_2.index ⟨(i 0).val / 10000, ht⟩ (0 : Fin 2) = (i 0).val / 10000 := e4
  refine ⟨⟨(i 0).val / 10000, ht⟩, flush3_2 _, ?_⟩
  rw [mem_tile3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    omega
  | ⟨1, _⟩ =>
    show win3_2.index ⟨(i 0).val / 10000, ht⟩ (1 : Fin 2) * 16 ≤ (i 1).val
      ∧ (i 1).val < win3_2.index ⟨(i 0).val / 10000, ht⟩ (1 : Fin 2) * 16 + 16
    omega

/-- After the region the output array holds the whole-array function of the arrays the region found. -/
theorem final3 (c : Dev nD) :
    (dat3 V c).arrAt 2 cfg3.N = Cert.Gcn.addRow1Clamp (V c main_v60) (V c main_v31) bound3 :=
  (dat3 V c).arrAt_eq_of_cover 2 _ (fun t _ => flushed3 V c t) cover3

end Cert.KernelIdeal.Tiles

end
-- ==== Proof.Fold.lean ====
/-
  The contents of the four region outputs along the fold of the idealized program's buffers.

  The fold names the buffers' contents at each boundary: W3 at the first row transform's entry, W4 at its exit, W5 after
  the host operations that propagate along the edges, W6 after the first bias-and-clamp, W7 after the second row
  transform, W8 after the second propagation, W9 after the second bias-and-clamp (the end). A region leaves in its
  output array the whole-array function of the arrays it found at its entry (the tile modules); here that is read at the
  four output buffers, each in terms of the contents one boundary earlier.
-/
import proofs.«122564_j21474836480575_1_alg».proof.Proof.Gen.KernelIdeal.Frame
import proofs.«122564_j21474836480575_1_alg».proof.Proof.Tile0
import proofs.«122564_j21474836480575_1_alg».proof.Proof.Tile1
import proofs.«122564_j21474836480575_1_alg».proof.Proof.Tile2
import proofs.«122564_j21474836480575_1_alg».proof.Proof.Tile3

noncomputable section

namespace Cert.KernelIdeal.Fold

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg)

/-- After the first row transform its output holds the rows of x times W1, of the arrays found at its entry. -/
theorem first_transform (c : Dev nD) :
    W4 m ρ c (Proc.devRef .tc main_v32) = Cert.Gcn.rowsTimes (V3 m ρ c main_arg0) (V3 m ρ c main_arg2) :=
  (W4_arr m ρ c 2).trans (Tiles.final0 (V3 m ρ) c)

/-- After the first bias-and-clamp its output holds max(aggregate + b1, bound) of the arrays found at its entry. -/
theorem first_clamp (c : Dev nD) :
    W6 m ρ c (Proc.devRef .tc main_v46)
      = Cert.Gcn.addRow1Clamp (V5 m ρ c main_v45) (V5 m ρ c main_v30) Tiles.bound1 :=
  (W6_arr m ρ c 2).trans (Tiles.final1 (V5 m ρ) c)

/-- After the second row transform its output holds the rows of the hidden features times W2. -/
theorem second_transform (c : Dev nD) :
    W7 m ρ c (Proc.devRef .tc main_v47) = Cert.Gcn.rowsTimes (V6 m ρ c main_v46) (V6 m ρ c main_arg4) :=
  (W7_arr m ρ c 2).trans (Tiles.final2 (V6 m ρ) c)

/-- After the second bias-and-clamp the result buffer holds max(aggregate + b2, bound). -/
theorem second_clamp (c : Dev nD) :
    W9 m ρ c (Proc.devRef .tc main_v61)
      = Cert.Gcn.addRow1Clamp (V8 m ρ c main_v60) (V8 m ρ c main_v31) Tiles.bound3 :=
  (W9_arr m ρ c 2).trans (Tiles.final3 (V8 m ρ) c)

end Cert.KernelIdeal.Fold

end
-- ==== Proof.Edges.lean ====
/-
  The part of the computation that only looks at the edge list, and one propagation along the edges, as whole-array
  functions spelt with the host operations of the idealized program (at the ideal values).

  The edge list is a [2, 3200000] array of node numbers. Every node gets a self loop: the message sources are row 0
  followed by 0 … 99999, the targets row 1 followed by 0 … 99999 (3300000 messages). A node's degree is the number of
  messages that target it (a one added per message); its scale is degree^(-1/2) where the degree is positive and the
  value of the zero word elsewhere; a message's weight is the product of the scales of its two ends (a negative node
  number is first counted from the end, as the host's indexing does). One propagation takes a [100000,16] array of
  node features, reads the row of each message's source, multiplies it by the message's weight and adds it into the
  row of the message's target, starting from zeros.

  Both programs apply exactly these operations; nothing here is ever opened.
-/
import proofs.«122564_j21474836480575_1_alg».proof.KernelIdeal
import proofs.«122564_j21474836480575_1_alg».proof.Proof.Gen.KernelIdeal
import Idealize.ShloMosaic.PureOps.Ideal

noncomputable section

namespace Cert.KernelIdeal.Edges

open Cert.KernelIdeal Cert.KernelIdeal.Gen Idealize.ShloMosaic

/-- The message sources: row 0 of the edge list, then every node once. -/
def srcOf (X : IVec S2x3200000 32) : IVec S3300000 32 :=
  concatenate S3300000 0 [⟨S3200000, shapeCast S3200000 (extractStridedSlice S1x3200000 ![0, 0] X slices_S2x3200000_S1x3200000_0_0) shapeCasts_S1x3200000_S3200000⟩, ⟨S100000, iotaInDim S100000 32 0⟩] concatenates_S3200000_S100000_S3300000_d0

/-- The message targets: row 1 of the edge list, then every node once. -/
def dstOf (X : IVec S2x3200000 32) : IVec S3300000 32 :=
  concatenate S3300000 0 [⟨S3200000, shapeCast S3200000 (extractStridedSlice S1x3200000 ![1, 0] X slices_S2x3200000_S1x3200000_1_0) shapeCasts_S1x3200000_S3200000⟩, ⟨S100000, iotaInDim S100000 32 0⟩] concatenates_S3200000_S100000_S3300000_d0

/-- A node's degree: a one added for every message that targets it. -/
def degOf (X : IVec S2x3200000 32) : FVec Ideal S100000 .f32 :=
  Host.scatterAdd scatter_S100000_S3300000x1_S3300000_n_0_0_1 (broadcastInDim S100000 ![] bcast_S_S100000 (constant S_ .f32 0#32))
    (broadcastInDim S3300000x1 ![0] bcast_S3300000_S3300000x1_0 (dstOf X))
    (broadcastInDim S3300000 ![] bcast_S_S3300000 (constant S_ .f32 1065353216#32))

/-- A node's scale: degree^(-1/2) where the degree is positive, the zero word's value elsewhere. -/
def scaleOf (X : IVec S2x3200000 32) : FVec Ideal S100000 .f32 :=
  select (cmpf (F := Ideal) .ogt (degOf X) (broadcastInDim S100000 ![] bcast_S_S100000 (constant S_ .f32 0#32)))
    (Host.rsqrt (degOf X)) (broadcastInDim S100000 ![] bcast_S_S100000 (id (constant S_ .f32 0#32)))

/-- A negative node number is counted from the end. -/
def wrapIdx (I : IVec S3300000 32) : IVec S3300000 32 :=
  select (cmpi .slt I (broadcastInDim S3300000 ![] bcast_S_S3300000 (constantI S_ 32 0#32)))
    (addi I (broadcastInDim S3300000 ![] bcast_S_S3300000 (constantI S_ 32 100000#32))) I

/-- A message's weight: the product of the scales of its source and of its target. -/
def weightOf (X : IVec S2x3200000 32) : FVec Ideal S3300000 .f32 :=
  mulf (Host.gather gather_S100000_S3300000x1_S3300000_n_0_n_n_0_1_1 (scaleOf X) (broadcastInDim S3300000x1 ![0] bcast_S3300000_S3300000x1_0 (wrapIdx (srcOf X))))
    (Host.gather gather_S100000_S3300000x1_S3300000_n_0_n_n_0_1_1 (scaleOf X) (broadcastInDim S3300000x1 ![0] bcast_S3300000_S3300000x1_0 (wrapIdx (dstOf X))))

/-- One propagation with sources `s`, targets `d` and weights `w`: the source's row, times the weight, added into the
    target's row, from zeros. -/
def propagate (xt : FVec Ideal S100000x16 .f32) (s d : IVec S3300000 32) (w : FVec Ideal S3300000 .f32) : FVec Ideal S100000x16 .f32 :=
  Host.scatterAdd scatter_S100000x16_S3300000x1_S3300000x16_1_0_0_1 (broadcastInDim S100000x16 ![] bcast_S_S100000x16 (constant S_ .f32 0#32))
    (broadcastInDim S3300000x1 ![0] bcast_S3300000_S3300000x1_0 d)
    (mulf (Host.gather gather_S100000x16_S3300000x1_S3300000x16_1_0_n_n_0_1_116 xt (broadcastInDim S3300000x1 ![0] bcast_S3300000_S3300000x1_0 (wrapIdx s)))
      (broadcastInDim S3300000x16 ![0, 1] bcast_S3300000x1_S3300000x16_0_1 (broadcastInDim S3300000x1 ![0] bcast_S3300000_S3300000x1_0 w)))

end Cert.KernelIdeal.Edges

end
-- ==== Proof.Entry.lean ====
/-
  What the buffers hold when the first region is entered, as functions of the launch memory.

  Before the first region the host computes, from the edge list alone, the message sources and targets (with a self
  loop per node), the node degrees, their inverse square roots where positive (through a called select), and the
  message weights; it also reshapes the two bias vectors to one-row matrices. These are three stretches of operations
  (before the called function, inside it, after it), read here one stretch at a time: each stretch's results in terms
  of the contents the stretch found, whatever they are, and then composed. No operation writes an argument, so the
  arguments are as launched.
  The called function's buffers are read at the value's type and written back at the buffer's type; for these buffers
  the two types are the same type, and each such transport is the identity (stated once per buffer).
-/
import proofs.«122564_j21474836480575_1_alg».proof.Proof.Gen.KernelIdeal.Frame
import proofs.«122564_j21474836480575_1_alg».proof.Proof.Edges
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-! ## After the first stretch of host operations (W1) -/

set_option maxHeartbeats 8000000 in
theorem s1_src (c : Dev nD) : W1 m ρ c (Proc.devRef .tc main_v3) = Edges.srcOf (m ((c.tc : Thread nD τ).loc main_arg1)) := by
  dsimp only [W1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 8000000 in
theorem s1_dst (c : Dev nD) : W1 m ρ c (Proc.devRef .tc main_v6) = Edges.dstOf (m ((c.tc : Thread nD τ).loc main_arg1)) := by
  dsimp only [W1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 8000000 in
/-- The degree buffer. -/
theorem s1_deg (c : Dev nD) : W1 m ρ c (Proc.devRef .tc main_v10) = Edges.degOf (m ((c.tc : Thread nD τ).loc main_arg1)) := by
  dsimp only [W1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 8000000 in
/-- The comparison of the degree with zero. -/
theorem s1_pos (c : Dev nD) : W1 m ρ c (Proc.devRef .tc main_v12)
    = cmpf (F := Ideal) .ogt (Edges.degOf (m ((c.tc : Thread nD τ).loc main_arg1))) (broadcastInDim S100000 ![] bcast_S_S100000 (constant S_ .f32 0#32)) := by
  dsimp only [W1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl
set_option maxHeartbeats 8000000 in
/-- The inverse square root of the degree. -/
theorem s1_rsqrt (c : Dev nD) : W1 m ρ c (Proc.devRef .tc main_v13)
    = (Host.rsqrt (F := Ideal) (Edges.degOf (m ((c.tc : Thread nD τ).loc main_arg1))) : FVec Ideal S100000 .f32) := by
  dsimp only [W1, hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl
set_option maxHeartbeats 8000000 in
/-- The zero scalar. -/
theorem s1_zero (c : Dev nD) : W1 m ρ c (Proc.devRef .tc main_cst_2) = constant (F := Ideal) S_ .f32 0#32 := by
  dsimp only [W1, hostOps0]
  after_results_simp

/-! ## The called function's buffers: contents at the value's type ARE the buffer's contents (their types are one type) -/

theorem wrap_v14 (p1 p2 p3) (v : FVec Ideal S100000 .f32) :
    (TRef.of (T := ⟨S100000, .f32⟩) main_v14 p1 p2 p3).toBuf (Val := Elt Ideal) v = v := rfl
theorem unwrap_v12 (p1 p2 p3) (v : main_v12.ty.Contents (Elt Ideal)) :
    (TRef.of (T := ⟨S100000, .i1⟩) main_v12 p1 p2 p3).ofBuf (Val := Elt Ideal) v = v := rfl
theorem unwrap_v13 (p1 p2 p3) (v : main_v13.ty.Contents (Elt Ideal)) :
    (TRef.of (T := ⟨S100000, .f32⟩) main_v13 p1 p2 p3).ofBuf (Val := Elt Ideal) v = v := rfl
theorem unwrap_cst2 (p1 p2 p3) (v : main_cst_2.ty.Contents (Elt Ideal)) :
    (TRef.of (T := ⟨S_, .f32⟩) main_cst_2 p1 p2 p3).ofBuf (Val := Elt Ideal) v = v := rfl
theorem wrap_c0v0 (p1 p2 p3) (v : FVec Ideal S_ .f32) :
    (TRef.of (T := ⟨S_, .f32⟩) main_call0_v0 p1 p2 p3).toBuf (Val := Elt Ideal) v = v := rfl
theorem unwrap_c0v0 (p1 p2 p3) (v : main_call0_v0.ty.Contents (Elt Ideal)) :
    (TRef.of (T := ⟨S_, .f32⟩) main_call0_v0 p1 p2 p3).ofBuf (Val := Elt Ideal) v = v := rfl
theorem wrap_c0v1 (p1 p2 p3) (v : FVec Ideal S100000 .f32) :
    (TRef.of (T := ⟨S100000, .f32⟩) main_call0_v1 p1 p2 p3).toBuf (Val := Elt Ideal) v = v := rfl
theorem unwrap_c0v1 (p1 p2 p3) (v : main_call0_v1.ty.Contents (Elt Ideal)) :
    (TRef.of (T := ⟨S100000, .f32⟩) main_call0_v1 p1 p2 p3).ofBuf (Val := Elt Ideal) v = v := rfl
/-! ## After the called select (W2): the stretch reads the previous boundary's contents, whatever they are -/

set_option maxHeartbeats 8000000 in
theorem s2_scale (c : Dev nD) : W2 m ρ c (Proc.devRef .tc main_v14) = Edges.scaleOf (m ((c.tc : Thread nD τ).loc main_arg1)) := by
  show StableHlo.after hostOps0_1 (W1 m ρ c) (Proc.devRef .tc main_v14) = _
  have e12 := s1_pos m ρ c
  have e13 := s1_rsqrt m ρ c
  have ecz := s1_zero m ρ c
  generalize W1 m ρ c = V1 at e12 e13 ecz ⊢
  dsimp only [hostOps0_1]
  after_results_simp
  rw [e12, e13, ecz]
  rw [wrap_v14, unwrap_v12, unwrap_v13, unwrap_c0v1, wrap_c0v1, unwrap_c0v0, wrap_c0v0, unwrap_cst2]
  rfl
set_option maxHeartbeats 8000000 in
theorem s2_src (c : Dev nD) : W2 m ρ c (Proc.devRef .tc main_v3) = Edges.srcOf (m ((c.tc : Thread nD τ).loc main_arg1)) := by
  show StableHlo.after hostOps0_1 (W1 m ρ c) (Proc.devRef .tc main_v3) = _
  have e := s1_src m ρ c
  generalize W1 m ρ c = V1 at e ⊢
  dsimp only [hostOps0_1]
  after_results_simp
  exact e
set_option maxHeartbeats 8000000 in
theorem s2_dst (c : Dev nD) : W2 m ρ c (Proc.devRef .tc main_v6) = Edges.dstOf (m ((c.tc : Thread nD τ).loc main_arg1)) := by
  show StableHlo.after hostOps0_1 (W1 m ρ c) (Proc.devRef .tc main_v6) = _
  have e := s1_dst m ρ c
  generalize W1 m ρ c = V1 at e ⊢
  dsimp only [hostOps0_1]
  after_results_simp
  exact e

/-! ## At the first region's entry (W3) -/

set_option maxHeartbeats 8000000 in
theorem entry_src (c : Dev nD) : W3 m ρ c (Proc.devRef .tc main_v3) = Edges.srcOf (m ((c.tc : Thread nD τ).loc main_arg1)) := by
  show StableHlo.after hostOps0_2 (W2 m ρ c) (Proc.devRef .tc main_v3) = _
  have e := s2_src m ρ c
  generalize W2 m ρ c = V2 at e ⊢
  dsimp only [hostOps0_2]
  after_results_simp
  exact e
set_option maxHeartbeats 8000000 in
theorem entry_dst (c : Dev nD) : W3 m ρ c (Proc.devRef .tc main_v6) = Edges.dstOf (m ((c.tc : Thread nD τ).loc main_arg1)) := by
  show StableHlo.after hostOps0_2 (W2 m ρ c) (Proc.devRef .tc main_v6) = _
  have e := s2_dst m ρ c
  generalize W2 m ρ c = V2 at e ⊢
  dsimp only [hostOps0_2]
  after_results_simp
  exact e
set_option maxHeartbeats 8000000 in
theorem entry_weight (c : Dev nD) : W3 m ρ c (Proc.devRef .tc main_v29) = Edges.weightOf (m ((c.tc : Thread nD τ).loc main_arg1)) := by
  show StableHlo.after hostOps0_2 (W2 m ρ c) (Proc.devRef .tc main_v29) = _
  have e14 := s2_scale m ρ c
  have e3 := s2_src m ρ c
  have e6 := s2_dst m ρ c
  generalize W2 m ρ c = V2 at e14 e3 e6 ⊢
  dsimp only [hostOps0_2]
  after_results_simp
  rw [e14, e3, e6]
  rfl

set_option maxHeartbeats 8000000 in
/-- No host operation before the first region writes an argument. -/
theorem entry_x (c : Dev nD) : W3 m ρ c (Proc.devRef .tc main_arg0) = m ((c.tc : Thread nD τ).loc main_arg0) := by
  dsimp only [W3, W2, W1, hostOps0_2, hostOps0_1, hostOps0]
  after_results_simp
set_option maxHeartbeats 8000000 in
theorem entry_w1 (c : Dev nD) : W3 m ρ c (Proc.devRef .tc main_arg2) = m ((c.tc : Thread nD τ).loc main_arg2) := by
  dsimp only [W3, W2, W1, hostOps0_2, hostOps0_1, hostOps0]
  after_results_simp
set_option maxHeartbeats 8000000 in
theorem entry_w2 (c : Dev nD) : W3 m ρ c (Proc.devRef .tc main_arg4) = m ((c.tc : Thread nD τ).loc main_arg4) := by
  dsimp only [W3, W2, W1, hostOps0_2, hostOps0_1, hostOps0]
  after_results_simp

set_option maxHeartbeats 8000000 in
/-- At the first region's entry the first bias, reshaped by the host to one row, is the argument cast to [1,16]. -/
theorem bias1_row (c : Dev nD) :
    W3 m ρ c (Proc.devRef .tc main_v30) = shapeCast S1x16 (m ((c.tc : Thread nD τ).loc main_arg3)) shapeCasts_S16_S1x16 := by
  dsimp only [W3, W2, W1, hostOps0_2, hostOps0_1, hostOps0]
  after_results_simp
  rfl

set_option maxHeartbeats 8000000 in
/-- The same for the second bias. -/
theorem bias2_row (c : Dev nD) :
    W3 m ρ c (Proc.devRef .tc main_v31) = shapeCast S1x16 (m ((c.tc : Thread nD τ).loc main_arg5)) shapeCasts_S16_S1x16 := by
  dsimp only [W3, W2, W1, hostOps0_2, hostOps0_1, hostOps0]
  after_results_simp
  rfl

end Cert.KernelIdeal.Entry

end
-- ==== Proof.Bridge.lean ====
/-
  The idealized program's result and the idealized reference's result are one function of the arguments.

  The program's result buffer, at the last boundary of its fold, is walked back: it is the second bias-and-clamp of
  the second propagation of the second row transform of the first bias-and-clamp of the first propagation of the first
  row transform of x — the edge pieces (sources, targets, weights) and the two one-row biases being the values the
  first region found at its entry, and those are functions of the launch memory's edge list and bias vectors.
  The reference's result term is the same chain: its two general products are row transforms, and each of its
  add / broadcast / maximum chains is the bias-and-clamp. What is left differs only in which of the two programs' equal
  records of dimension numbers and side conditions the shared host operations carry.
  No law of arithmetic is used beyond what the two dense pieces' own lemmas use (no sum is reordered, nothing is
  cancelled), so the inputs' finiteness is never needed.
-/
import proofs.«122564_j21474836480575_1_alg».proof.Proof.Fold
import proofs.«122564_j21474836480575_1_alg».proof.Proof.Entry
import proofs.«122564_j21474836480575_1_alg».proof.Proof.ReferenceRun
import proofs.«122564_j21474836480575_1_alg».proof.Proof.Layer
import Idealize.ShloMosaic.Lib.StableHlo.Run

set_option maxRecDepth 16384

noncomputable section

namespace Cert.Bridge

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-- The reference's first product, with its own record of dimension numbers, is rows times matrix. -/
theorem ref_product1 (A : FVec Ideal Cert.ReferenceIdeal.S100000x54 .f32) (B : FVec Ideal Cert.ReferenceIdeal.S54x16 .f32) :
    Host.dotGeneral Cert.ReferenceIdeal.dot_S100000x54_S54x16_S100000x16_1_0_0_1_n_n none A B = Cert.Gcn.rowsTimes A B :=
  Cert.Gcn.dotGeneral_eq_rowsTimes (Cert.ReferenceIdeal.dot_S100000x54_S54x16_S100000x16_1_0_0_1_n_n).wf none A B

/-- The reference's second product likewise. -/
theorem ref_product2 (A : FVec Ideal Cert.ReferenceIdeal.S100000x16 .f32) (B : FVec Ideal Cert.ReferenceIdeal.S16x16 .f32) :
    Host.dotGeneral Cert.ReferenceIdeal.dot_S100000x16_S16x16_S100000x16_1_0_0_1_n_n none A B = Cert.Gcn.rowsTimes A B :=
  Cert.Gcn.dotGeneral_eq_rowsTimes (Cert.ReferenceIdeal.dot_S100000x16_S16x16_S100000x16_1_0_0_1_n_n).wf none A B

set_option maxHeartbeats 50400000 in
/-- The reference's result, from a memory that agrees with the program's on the six arguments, is the program's result. -/
theorem result_eq
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.ValueP.res_main_v95 (F := Ideal) m' c = W9 m ρ c (Proc.devRef .tc main_v61) := by
  -- the program's side: walk the fold back, boundary by boundary, to the first region's entry
  conv_rhs =>
    rw [Fold.second_clamp]
    dsimp only [V8, W8, hostOps3]
  after_results_simp
  rw [Fold.second_transform, W7_of_ne m ρ c main_v6 (by decide), W7_of_ne m ρ c main_v3 (by decide),
    W7_of_ne m ρ c main_v29 (by decide), W7_of_ne m ρ c main_v31 (by decide)]
  dsimp only [V6]
  rw [Fold.first_clamp, W6_of_ne m ρ c main_arg4 (by decide), W6_of_ne m ρ c main_v6 (by decide),
    W6_of_ne m ρ c main_v3 (by decide), W6_of_ne m ρ c main_v29 (by decide), W6_of_ne m ρ c main_v31 (by decide)]
  dsimp only [V5, W5, hostOps1]
  after_results_simp
  rw [Fold.first_transform, W4_of_ne m ρ c main_v6 (by decide), W4_of_ne m ρ c main_v3 (by decide),
    W4_of_ne m ρ c main_v29 (by decide), W4_of_ne m ρ c main_v30 (by decide), W4_of_ne m ρ c main_v31 (by decide),
    W4_of_ne m ρ c main_arg4 (by decide)]
  dsimp only [V3]
  -- the values at the first region's entry, as functions of the launch memory
  rw [Entry.bias1_row, Entry.bias2_row, Cert.Gcn.addRow1Clamp_shapeCast, Cert.Gcn.addRow1Clamp_shapeCast,
    Entry.entry_src, Entry.entry_dst, Entry.entry_weight, Entry.entry_x, Entry.entry_w1, Entry.entry_w2]
  -- the reference's side: its two products and its two bias-and-clamp chains as the same whole-array functions
  unfold Cert.ReferenceIdeal.ValueP.res_main_v95
  rw [h0, h1, h2, h3, h4, h5]
  rw [ref_product1, ref_product2, Cert.Gcn.host_addRowClamp, Cert.Gcn.host_addRowClamp]
  -- the shared host operations, with either program's records
  rfl

end Cert.Bridge

end
-- ==== Proof.lean ====
/-
  A two-layer graph convolution, computed by a program of four tiled regions among host operations, against the plain
  host reference: at the ideal values the two end with equal results.

  One layer: multiply every node's feature row by a weight matrix; send along every edge (and a self loop per node) the
  source's row scaled by deg(source)^(-1/2)·deg(target)^(-1/2) and add it into the target's row; add a bias row and
  clamp below at the value of the zero word. The program does the row transform and the bias-and-clamp in tiles of
  10000 rows (the transform on the matrix unit, its operands narrowed to a shorter float format, which is the
  identity on the extended reals) and the propagation with the same host operations as the reference; it computes the
  edge weights once where the reference computes them per layer, the same function of the edge list both times.

  * The three frames: the two programs' by their frame certificates; the reference's is its run with the result
    dropped.
  * Nothing was rewritten when the program was idealized, so there is nothing to preserve.
  * The results: the program's result buffer is named by its run and walked back through the buffers' contents at the
    nine segment boundaries to a function of the arguments; the reference's result term is that same function.
    Tile t of a row transform or of a bias-and-clamp is tile t of the whole-array function, since entry (r,h) reads
    only row r (and column h of the small operand), and the ten tiles cover the array.
  No sum is reordered and nothing is cancelled, so the inputs' finiteness is not used.
-/
import proofs.«122564_j21474836480575_1_alg».proof.Defs
import proofs.«122564_j21474836480575_1_alg».proof.Proof.Gen.Kernel
import proofs.«122564_j21474836480575_1_alg».proof.Proof.Gen.Kernel.Skeleton
import proofs.«122564_j21474836480575_1_alg».proof.Proof.Gen.Kernel.Launch
import proofs.«122564_j21474836480575_1_alg».proof.Proof.Gen.Kernel.Points
import proofs.«122564_j21474836480575_1_alg».proof.Proof.Gen.Kernel.Frame
import proofs.«122564_j21474836480575_1_alg».proof.Proof.Gen.KernelIdeal
import proofs.«122564_j21474836480575_1_alg».proof.Proof.Gen.KernelIdeal.Skeleton
import proofs.«122564_j21474836480575_1_alg».proof.Proof.Gen.KernelIdeal.Launch
import proofs.«122564_j21474836480575_1_alg».proof.Proof.Gen.KernelIdeal.Points
import proofs.«122564_j21474836480575_1_alg».proof.Proof.Gen.KernelIdeal.Frame
import proofs.«122564_j21474836480575_1_alg».proof.Proof.Gen.ReferenceIdeal
import proofs.«122564_j21474836480575_1_alg».proof.Proof.Gen.Pre_finite_inputs
import proofs.«122564_j21474836480575_1_alg».proof.Proof.KernelRun
import proofs.«122564_j21474836480575_1_alg».proof.Proof.ReferenceRun
import proofs.«122564_j21474836480575_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both runs end, and with equal results: the program's result buffer at the
    last boundary's contents, which the reference's result term equals. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m ρ m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
